-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000 : S_.BroadcastsInDim S800000 (![] : Fin 0 → Fin S800000.rank)
  reducesTo_S800000_S_d0 : S800000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x10 : S_.BroadcastsInDim S128x10 (![] : Fin 0 → Fin S128x10.rank)
  reducesTo_S128x10_S_d0_1 : S128x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg9 : FVec F S10 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x10 .f32) (main_arg9 : FVec F S10 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x10 .f32 := Host.absf main_arg8
  let main_cst_10 : FVec F S_ .f32 := constant S_ .f32 0x7F800000#32
  let main_v30 : FVec F S128x10 .f32 := broadcastInDim S128x10 ![] bcast_S_S128x10 main_cst_10
  let main_v31 : IVec S128x10 1 := cmpf .olt main_v29 main_v30
  let main_c_11 : IVec S_ 1 := constantI S_ 1 1#1
  let main_v32 : IVec S_ 1 := (fun x v => Host.reduce IntOp.andi x v reducesTo_S128x10_S_d0_1 h_S_) main_v31 main_c_11
  let main_v33 : IVec S_ 1 := andi main_v28 main_v32
  fn_part2 (F := F) main_arg9 main_v33

def fn {F : FTy → Type} [FloatOps F] (main_arg0 : FVec F S50000x128 .f32) (main_arg1 : IVec S2x800000 32) (main_arg2 : FVec F S800000 .f32) (main_arg3 : IVec S50000 32) (main_arg4 : FVec F S128x128 .f32) (main_arg5 : FVec F S128 .f32) (main_arg6 : FVec F S128x128 .f32) (main_arg7 : FVec F S128 .f32) (main_arg8 : FVec F S128x10 .f32) (main_arg9 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S50176x128 : Shape := ⟨2, ![50176, 128]⟩
abbrev S1024x128 : Shape := ⟨2, ![1024, 128]⟩
abbrev S850000x128 : Shape := ⟨2, ![850000, 128]⟩
abbrev S1x128 : Shape := ⟨2, ![1, 128]⟩
abbrev S50176x10 : Shape := ⟨2, ![50176, 10]⟩
abbrev S1024x10 : Shape := ⟨2, ![1024, 10]⟩
abbrev S50000x10 : Shape := ⟨2, ![50000, 10]⟩
abbrev S850000x10 : Shape := ⟨2, ![850000, 10]⟩
abbrev S1x10 : Shape := ⟨2, ![1, 10]⟩
abbrev S64x10 : Shape := ⟨2, ![64, 10]⟩
abbrev S50000x1 : Shape := ⟨2, ![50000, 1]⟩
abbrev S64 : Shape := ⟨1, ![64]⟩
abbrev S64x1 : Shape := ⟨2, ![64, 1]⟩

abbrev nBuf : Space → Nat
  | .hbm => 161
  | .vmem => 15
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S_, .i32⟩
  | 53 => ⟨S_, .f32⟩
  | 54 => ⟨S50176x128, .f32⟩
  | 55 => ⟨S50176x128, .f32⟩
  | 56 => ⟨S50000x128, .f32⟩
  | 57 => ⟨S850000x1, .f32⟩
  | 58 => ⟨S_, .i32⟩
  | 59 => ⟨S850000, .i32⟩
  | 60 => ⟨S850000, .i1⟩
  | 61 => ⟨S_, .i32⟩
  | 62 => ⟨S850000, .i32⟩
  | 63 => ⟨S850000, .i32⟩
  | 64 => ⟨S850000, .i32⟩
  | 65 => ⟨S850000x1, .i32⟩
  | 66 => ⟨S850000x128, .f32⟩
  | 67 => ⟨S850000x128, .f32⟩
  | 68 => ⟨S850000x128, .f32⟩
  | 69 => ⟨S_, .f32⟩
  | 70 => ⟨S50000x128, .f32⟩
  | 71 => ⟨S850000x1, .i32⟩
  | 72 => ⟨S50000x128, .f32⟩
  | 73 => ⟨S1x128, .f32⟩
  | 74 => ⟨S50000x128, .f32⟩
  | 75 => ⟨S50000x128, .f32⟩
  | 76 => ⟨S_, .f32⟩
  | 77 => ⟨S50000x128, .f32⟩
  | 78 => ⟨S50000x128, .f32⟩
  | 79 => ⟨S_, .i32⟩
  | 80 => ⟨S_, .f32⟩
  | 81 => ⟨S50176x128, .f32⟩
  | 82 => ⟨S50176x128, .f32⟩
  | 83 => ⟨S50000x128, .f32⟩
  | 84 => ⟨S850000x1, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x128, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S1x128, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S_, .i32⟩
  | 107 => ⟨S_, .f32⟩
  | 108 => ⟨S50176x128, .f32⟩
  | 109 => ⟨S50176x10, .f32⟩
  | 110 => ⟨S50000x10, .f32⟩
  | 111 => ⟨S850000x1, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x10, .f32⟩
  | 121 => ⟨S850000x10, .f32⟩
  | 122 => ⟨S850000x10, .f32⟩
  | 123 => ⟨S_, .f32⟩
  | 124 => ⟨S50000x10, .f32⟩
  | 125 => ⟨S850000x1, .i32⟩
  | 126 => ⟨S50000x10, .f32⟩
  | 127 => ⟨S1x10, .f32⟩
  | _ => ⟨S50000x128, .f32⟩

abbrev hbmTy0_1 (i : Nat) : BufTy := match i % 128 with
  | 0 => ⟨S50000x10, .f32⟩
  | 1 => ⟨S50000x10, .f32⟩
  | 2 => ⟨S_, .f32⟩
  | 3 => ⟨S64x10, .f32⟩
  | 4 => ⟨S50000x1, .i32⟩
  | 5 => ⟨S64x10, .f32⟩
  | 6 => ⟨S_, .f32⟩
  | 7 => ⟨S50000, .f32⟩
  | 8 => ⟨S_, .f32⟩
  | 9 => ⟨S64, .f32⟩
  | 10 => ⟨S50000x1, .i32⟩
  | 11 => ⟨S64, .f32⟩
  | 12 => ⟨S_, .f32⟩
  | 13 => ⟨S64, .f32⟩
  | 14 => ⟨S64, .f32⟩
  | 15 => ⟨S64x1, .f32⟩
  | 16 => ⟨S64x10, .f32⟩
  | 17 => ⟨S64x10, .f32⟩
  | 18 => ⟨S_, .f32⟩
  | 19 => ⟨S64, .f32⟩
  | 20 => ⟨S_, .f32⟩
  | 21 => ⟨S64, .f32⟩
  | 22 => ⟨S64, .f32⟩
  | 23 => ⟨S64x1, .f32⟩
  | 24 => ⟨S64x10, .f32⟩
  | 25 => ⟨S64x10, .f32⟩
  | 26 => ⟨S64x10, .f32⟩
  | 27 => ⟨S_, .f32⟩
  | 28 => ⟨S64, .f32⟩
  | 29 => ⟨S64x1, .f32⟩
  | 30 => ⟨S64x1, .f32⟩
  | 31 => ⟨S64x10, .f32⟩
  | 32 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S1024x128, .f32⟩
  | .local _ .vmem, ⟨1, _⟩ => ⟨S1024x128, .f32⟩
  | .local _ .vmem, ⟨2, _⟩ => ⟨S128x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S128x128, .f32⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S128x10, .f32⟩
  | .local _ .vmem, ⟨13, _⟩ => ⟨S1024x10, .f32⟩
  | .local _ .vmem, ⟨14, _⟩ => ⟨S1024x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_call1_v0 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_c_7 : Ref sig .tc := ⟨.hbm, 58, rfl⟩
abbrev main_v36 : Ref sig .tc := ⟨.hbm, 59, rfl⟩
abbrev main_v37 : Ref sig .tc := ⟨.hbm, 60, rfl⟩
abbrev main_c_8 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_call2_cst : Ref sig .tc := ⟨.hbm, 76, rfl⟩
abbrev main_call2_v0 : Ref sig .tc := ⟨.hbm, 77, rfl⟩
abbrev main_v51 : Ref sig .tc := ⟨.hbm, 78, rfl⟩
abbrev main_c_10 : Ref sig .tc := ⟨.hbm, 79, rfl⟩
abbrev main_call3_v0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_c_11 : Ref sig .tc := ⟨.hbm, 85, rfl⟩
abbrev main_v56 : Ref sig .tc := ⟨.hbm, 86, rfl⟩
abbrev main_v57 : Ref sig .tc := ⟨.hbm, 87, rfl⟩
abbrev main_c_12 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call4_cst : Ref sig .tc := ⟨.hbm, 103, rfl⟩
abbrev main_call4_v0 : Ref sig .tc := ⟨.hbm, 104, rfl⟩
abbrev main_v71 : Ref sig .tc := ⟨.hbm, 105, rfl⟩
abbrev main_c_14 : Ref sig .tc := ⟨.hbm, 106, rfl⟩
abbrev main_call5_v0 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_15 : Ref sig .tc := ⟨.hbm, 112, rfl⟩
abbrev main_v76 : Ref sig .tc := ⟨.hbm, 113, rfl⟩
abbrev main_v77 : Ref sig .tc := ⟨.hbm, 114, rfl⟩
abbrev main_c_16 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_17 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_18 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_19 : Ref sig .tc := ⟨.hbm, 134, rfl⟩
abbrev main_v94 : Ref sig .tc := ⟨.hbm, 135, rfl⟩
abbrev main_cst_20 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_21 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_call6_cst : Ref sig .tc := ⟨.hbm, 146, rfl⟩
abbrev main_call6_v0 : Ref sig .tc := ⟨.hbm, 147, rfl⟩
abbrev main_call6_cst_0 : Ref sig .tc := ⟨.hbm, 148, rfl⟩
abbrev main_call6_v1 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_cst_1 : Ref sig .tc := ⟨.hbm, 155, rfl⟩
abbrev main_call6_v7 : Ref sig .tc := ⟨.hbm, 156, rfl⟩
abbrev main_call6_v8 : Ref sig .tc := ⟨.hbm, 157, rfl⟩
abbrev main_call6_v9 : Ref sig .tc := ⟨.hbm, 158, rfl⟩
abbrev main_call6_v10 : Ref sig .tc := ⟨.hbm, 159, rfl⟩
abbrev main_v103 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14

abbrev nD : Nat := 1
abbrev τ : Topo := Topo.v7x

variable {F : FTy → Type} [FloatOps F]

abbrev grid0 : Pipeline.Grid := ⟨1, ![49], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![49], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x10 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x10 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  pads_S50000x128_S50176x128_01760_000 : S50000x128.Pads (![0, 0] : Fin 2 → Nat) ![176, 0] ![0, 0] S50176x128
  h_S_ : 0 < S_.numel
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  slices_S50176x128_S50000x128_0_0 : S50176x128.Slices ![0, 0] S50000x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  inb_S128x10_S128x10_0_0 : ∀ a, (![0, 0] : Fin 2 → Nat) a + S128x10.size a ≤ S128x10.size a
  h_S128x10 : 0 < S128x10.numel
  inb_S1024x10_S1024x10_0_0 : ∀ a, (![0, 0] : Fin 2 → Nat) a + S1024x10.size a ≤ S1024x10.size a
  h_S1024x10 : 0 < S1024x10.numel
  slices_S50176x10_S50000x10_0_0 : S50176x10.Slices ![0, 0] S50000x10
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S64x10 : S_.BroadcastsInDim S64x10 (![] : Fin 0 → Fin S64x10.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  reducesTo_S64x10_S64_d1 : S64x10.ReducesTo [1] S64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S1024x128_S128x128_S1024x128_1_0_0_1_n_n_wf : DotDims.WF S1024x128 S128x128 S1024x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S1024x128_S128x10_S1024x10_1_0_0_1_n_n_wf : DotDims.WF S1024x128 S128x10 S1024x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  scatter_S64x10_S50000x1_S50000x10_1_0_0_1_wf : ScatterDims.WF S64x10 S50000x1 S50000x10 [1] [0] [0] 1
  scatter_S64_S50000x1_S50000_n_0_0_1_wf : ScatterDims.WF S64 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S50176x128.size a
  hwx0_0 : ∀ i : grid0.Coords, EltTy.bits .f32 = 32 ∨ (Rect.block (s := S50176x128) S1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S50176x128.size a
  hwx0_2 : ∀ i : grid0.Coords, EltTy.bits .f32 = 32 ∨ (Rect.block (s := S50176x128) S1024x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S50176x128.size a
  hwx1_0 : ∀ i : grid1.Coords, EltTy.bits .f32 = 32 ∨ (Rect.block (s := S50176x128) S1024x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S50176x128.size a
  hwx1_2 : ∀ i : grid1.Coords, EltTy.bits .f32 = 32 ∨ (Rect.block (s := S50176x128) S1024x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x128.size a ≤ S50176x128.size a
  hwx2_0 : ∀ i : grid2.Coords, EltTy.bits .f32 = 32 ∨ (Rect.block (s := S50176x128) S1024x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x10.size a ≤ S128x10.size a
  hwx2_1 : ∀ i : grid2.Coords, EltTy.bits .f32 = 32 ∨ (Rect.block (s := S128x10) S128x10.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x10.size a ≤ S50176x10.size a
  hwx2_2 : ∀ i : grid2.Coords, EltTy.bits .f32 = 32 ∨ (Rect.block (s := S50176x10) S1024x10.size (cc2_transform_2 i) (hinb2_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S1024x128_S128x10_S1024x10_1_0_0_1_n_n : DotDims S1024x128 S128x10 S1024x10 where
  lhsContracting := [1]
  rhsContracting := [0]
  lhsNonContracting := [0]
  rhsNonContracting := [1]
  lhsBatch := []
  rhsBatch := []
  wf := dot_S1024x128_S128x10_S1024x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf
def scatter_S64x10_S50000x1_S50000x10_1_0_0_1 : ScatterDims S64x10 S50000x1 S50000x10 where
  updateWindowDims := [1]
  insertedWindowDims := [0]
  scatterDimsToOperandDims := [0]
  indexVectorDim := 1
  wf := scatter_S64x10_S50000x1_S50000x10_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

abbrev win0_0 : Pipeline.Window sig grid0 :=
  Pipeline.Window.ofSpec (Memref.whole main_v32) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S1024x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v72) S1024x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x10.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v73) S1024x10.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000 : Shape := ⟨1, ![800000]⟩
abbrev S50000 : Shape := ⟨1, ![50000]⟩
abbrev S128x128 : Shape := ⟨2, ![128, 128]⟩
abbrev S128 : Shape := ⟨1, ![128]⟩
abbrev S128x10 : Shape := ⟨2, ![128, 10]⟩
abbrev S10 : Shape := ⟨1, ![10]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x10 : Shape := ⟨2, ![50000, 10]⟩
abbrev S850000x10 : Shape := ⟨2, ![850000, 10]⟩
abbrev S1x10 : Shape := ⟨2, ![1, 10]⟩
abbrev S64x10 : Shape := ⟨2, ![64, 10]⟩
abbrev S50000x1 : Shape := ⟨2, ![50000, 1]⟩
abbrev S64 : Shape := ⟨1, ![64]⟩
abbrev S64x1 : Shape := ⟨2, ![64, 1]⟩

abbrev nBuf : Space → Nat
  | .hbm => 149
  | .vmem => 0
  | .smem => 0
  | _ => 0

abbrev hbmTy0_0 (i : Nat) : BufTy := match i % 128 with
  | 0 => ⟨S50000x128, .f32⟩
  | 1 => ⟨S2x800000, .i32⟩
  | 2 => ⟨S800000, .f32⟩
  | 3 => ⟨S50000, .i32⟩
  | 4 => ⟨S128x128, .f32⟩
  | 5 => ⟨S128, .f32⟩
  | 6 => ⟨S128x128, .f32⟩
  | 7 => ⟨S128, .f32⟩
  | 8 => ⟨S128x10, .f32⟩
  | 9 => ⟨S10, .f32⟩
  | 10 => ⟨S50000, .i32⟩
  | 11 => ⟨S1x800000, .i32⟩
  | 12 => ⟨S800000, .i32⟩
  | 13 => ⟨S850000, .i32⟩
  | 14 => ⟨S1x800000, .i32⟩
  | 15 => ⟨S800000, .i32⟩
  | 16 => ⟨S850000, .i32⟩
  | 17 => ⟨S_, .f32⟩
  | 18 => ⟨S50000, .f32⟩
  | 19 => ⟨S850000, .f32⟩
  | 20 => ⟨S_, .f32⟩
  | 21 => ⟨S50000, .f32⟩
  | 22 => ⟨S850000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S850000, .i32⟩
  | 34 => ⟨S850000, .i1⟩
  | 35 => ⟨S_, .i32⟩
  | 36 => ⟨S850000, .i32⟩
  | 37 => ⟨S850000, .i32⟩
  | 38 => ⟨S850000, .i32⟩
  | 39 => ⟨S850000x1, .i32⟩
  | 40 => ⟨S850000, .f32⟩
  | 41 => ⟨S850000, .f32⟩
  | 42 => ⟨S_, .i32⟩
  | 43 => ⟨S850000, .i32⟩
  | 44 => ⟨S850000, .i1⟩
  | 45 => ⟨S_, .i32⟩
  | 46 => ⟨S850000, .i32⟩
  | 47 => ⟨S850000, .i32⟩
  | 48 => ⟨S850000, .i32⟩
  | 49 => ⟨S850000x1, .i32⟩
  | 50 => ⟨S850000, .f32⟩
  | 51 => ⟨S850000, .f32⟩
  | 52 => ⟨S50000x128, .f32⟩
  | 53 => ⟨S850000x1, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x128, .f32⟩
  | 63 => ⟨S850000x128, .f32⟩
  | 64 => ⟨S850000x128, .f32⟩
  | 65 => ⟨S_, .f32⟩
  | 66 => ⟨S50000x128, .f32⟩
  | 67 => ⟨S850000x1, .i32⟩
  | 68 => ⟨S50000x128, .f32⟩
  | 69 => ⟨S1x128, .f32⟩
  | 70 => ⟨S50000x128, .f32⟩
  | 71 => ⟨S50000x128, .f32⟩
  | 72 => ⟨S_, .f32⟩
  | 73 => ⟨S50000x128, .f32⟩
  | 74 => ⟨S50000x128, .f32⟩
  | 75 => ⟨S50000x128, .f32⟩
  | 76 => ⟨S850000x1, .f32⟩
  | 77 => ⟨S_, .i32⟩
  | 78 => ⟨S850000, .i32⟩
  | 79 => ⟨S850000, .i1⟩
  | 80 => ⟨S_, .i32⟩
  | 81 => ⟨S850000, .i32⟩
  | 82 => ⟨S850000, .i32⟩
  | 83 => ⟨S850000, .i32⟩
  | 84 => ⟨S850000x1, .i32⟩
  | 85 => ⟨S850000x128, .f32⟩
  | 86 => ⟨S850000x128, .f32⟩
  | 87 => ⟨S850000x128, .f32⟩
  | 88 => ⟨S_, .f32⟩
  | 89 => ⟨S50000x128, .f32⟩
  | 90 => ⟨S850000x1, .i32⟩
  | 91 => ⟨S50000x128, .f32⟩
  | 92 => ⟨S1x128, .f32⟩
  | 93 => ⟨S50000x128, .f32⟩
  | 94 => ⟨S50000x128, .f32⟩
  | 95 => ⟨S_, .f32⟩
  | 96 => ⟨S50000x128, .f32⟩
  | 97 => ⟨S50000x128, .f32⟩
  | 98 => ⟨S50000x10, .f32⟩
  | 99 => ⟨S850000x1, .f32⟩
  | 100 => ⟨S_, .i32⟩
  | 101 => ⟨S850000, .i32⟩
  | 102 => ⟨S850000, .i1⟩
  | 103 => ⟨S_, .i32⟩
  | 104 => ⟨S850000, .i32⟩
  | 105 => ⟨S850000, .i32⟩
  | 106 => ⟨S850000, .i32⟩
  | 107 => ⟨S850000x1, .i32⟩
  | 108 => ⟨S850000x10, .f32⟩
  | 109 => ⟨S850000x10, .f32⟩
  | 110 => ⟨S850000x10, .f32⟩
  | 111 => ⟨S_, .f32⟩
  | 112 => ⟨S50000x10, .f32⟩
  | 113 => ⟨S850000x1, .i32⟩
  | 114 => ⟨S50000x10, .f32⟩
  | 115 => ⟨S1x10, .f32⟩
  | 116 => ⟨S50000x10, .f32⟩
  | 117 => ⟨S50000x10, .f32⟩
  | 118 => ⟨S_, .f32⟩
  | 119 => ⟨S64x10, .f32⟩
  | 120 => ⟨S50000x1, .i32⟩
  | 121 => ⟨S64x10, .f32⟩
  | 122 => ⟨S_, .f32⟩
  | 123 => ⟨S50000, .f32⟩
  | 124 => ⟨S_, .f32⟩
  | 125 => ⟨S64, .f32⟩
  | 126 => ⟨S50000x1, .i32⟩
  | 127 => ⟨S64, .f32⟩
  | _ => ⟨S50000x128, .f32⟩

abbrev hbmTy0_1 (i : Nat) : BufTy := match i % 128 with
  | 0 => ⟨S_, .f32⟩
  | 1 => ⟨S64, .f32⟩
  | 2 => ⟨S64, .f32⟩
  | 3 => ⟨S64x1, .f32⟩
  | 4 => ⟨S64x10, .f32⟩
  | 5 => ⟨S64x10, .f32⟩
  | 6 => ⟨S_, .f32⟩
  | 7 => ⟨S64, .f32⟩
  | 8 => ⟨S_, .f32⟩
  | 9 => ⟨S64, .f32⟩
  | 10 => ⟨S64, .f32⟩
  | 11 => ⟨S64x1, .f32⟩
  | 12 => ⟨S64x10, .f32⟩
  | 13 => ⟨S64x10, .f32⟩
  | 14 => ⟨S64x10, .f32⟩
  | 15 => ⟨S_, .f32⟩
  | 16 => ⟨S64, .f32⟩
  | 17 => ⟨S64x1, .f32⟩
  | 18 => ⟨S64x1, .f32⟩
  | 19 => ⟨S64x10, .f32⟩
  | 20 => ⟨S64x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_c_6 : Ref sig .tc := ⟨.hbm, 54, rfl⟩
abbrev main_v34 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_9 : Ref sig .tc := ⟨.hbm, 77, rfl⟩
abbrev main_v52 : Ref sig .tc := ⟨.hbm, 78, rfl⟩
abbrev main_v53 : Ref sig .tc := ⟨.hbm, 79, rfl⟩
abbrev main_c_10 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_11 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_call2_cst : Ref sig .tc := ⟨.hbm, 95, rfl⟩
abbrev main_call2_v0 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_12 : Ref sig .tc := ⟨.hbm, 100, rfl⟩
abbrev main_v70 : Ref sig .tc := ⟨.hbm, 101, rfl⟩
abbrev main_v71 : Ref sig .tc := ⟨.hbm, 102, rfl⟩
abbrev main_c_13 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_14 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_15 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_cst_16 : Ref sig .tc := ⟨.hbm, 122, rfl⟩
abbrev main_v88 : Ref sig .tc := ⟨.hbm, 123, rfl⟩
abbrev main_cst_17 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_18 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_call3_cst : Ref sig .tc := ⟨.hbm, 134, rfl⟩
abbrev main_call3_v0 : Ref sig .tc := ⟨.hbm, 135, rfl⟩
abbrev main_call3_cst_0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_call3_v5 : Ref sig .tc := ⟨.hbm, 141, rfl⟩
abbrev main_call3_v6 : Ref sig .tc := ⟨.hbm, 142, rfl⟩
abbrev main_call3_cst_1 : Ref sig .tc := ⟨.hbm, 143, rfl⟩
abbrev main_call3_v7 : Ref sig .tc := ⟨.hbm, 144, rfl⟩
abbrev main_call3_v8 : Ref sig .tc := ⟨.hbm, 145, rfl⟩
abbrev main_call3_v9 : Ref sig .tc := ⟨.hbm, 146, rfl⟩
abbrev main_call3_v10 : Ref sig .tc := ⟨.hbm, 147, rfl⟩
abbrev main_v97 : Ref sig .tc := ⟨.hbm, 148, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x10_0_1 : S850000x1.BroadcastsInDim S850000x10 (![0, 1] : Fin 2 → Fin S850000x10.rank)
  bcast_S_S50000x10 : S_.BroadcastsInDim S50000x10 (![] : Fin 0 → Fin S50000x10.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  bcast_S_S64x10 : S_.BroadcastsInDim S64x10 (![] : Fin 0 → Fin S64x10.rank)
  bcast_S50000_S50000x1_0 : S50000.BroadcastsInDim S50000x1 (![0] : Fin 1 → Fin S50000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x10_0_1 : S64x1.BroadcastsInDim S64x10 (![0, 1] : Fin 2 → Fin S64x10.rank)
  reducesTo_S64x10_S64_d1 : S64x10.ReducesTo [1] S64
  h_S_ : 0 < S_.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x10_S50000x10_1_0_0_1_n_n_wf : DotDims.WF S50000x128 S128x10 S50000x10 [1] [0] [0] [1] [] []
  gather_S50000x10_S850000x1_S850000x10_1_0_n_n_0_1_110_wf : GatherDims.WF S50000x10 S850000x1 S850000x10 [1] [0] [] [0] [] 1 ![1, 10]
  scatter_S50000x10_S850000x1_S850000x10_1_0_0_1_wf : ScatterDims.WF S50000x10 S850000x1 S850000x10 [1] [0] [0] 1
  scatter_S64x10_S50000x1_S50000x10_1_0_0_1_wf : ScatterDims.WF S64x10 S50000x1 S50000x10 [1] [0] [0] 1
  scatter_S64_S50000x1_S50000_n_0_0_1_wf : ScatterDims.WF S64 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x10_S50000x10_1_0_0_1_n_n : DotDims S50000x128 S128x10 S50000x10 where
  lhsContracting := [1]
  rhsContracting := [0]
  lhsNonContracting := [0]
  rhsNonContracting := [1]
  lhsBatch := []
  rhsBatch := []
  wf := dot_S50000x128_S128x10_S50000x10_1_0_0_1_n_n_wf
def gather_S50000x10_S850000x1_S850000x10_1_0_n_n_0_1_110 : GatherDims S50000x10 S850000x1 S850000x10 where
  offsetDims := [1]
  collapsedSliceDims := [0]
  operandBatchingDims := []
  startIndicesBatchingDims := []
  startIndexMap := [0]
  indexVectorDim := 1
  sliceSizes := ![1, 10]
  wf := gather_S50000x10_S850000x1_S850000x10_1_0_n_n_0_1_110_wf
def scatter_S50000x10_S850000x1_S850000x10_1_0_0_1 : ScatterDims S50000x10 S850000x1 S850000x10 where
  updateWindowDims := [1]
  insertedWindowDims := [0]
  scatterDimsToOperandDims := [0]
  indexVectorDim := 1
  wf := scatter_S50000x10_S850000x1_S850000x10_1_0_0_1_wf
def scatter_S64x10_S50000x1_S50000x10_1_0_0_1 : ScatterDims S64x10 S50000x1 S50000x10 where
  updateWindowDims := [1]
  insertedWindowDims := [0]
  scatterDimsToOperandDims := [0]
  indexVectorDim := 1
  wf := scatter_S64x10_S50000x1_S50000x10_1_0_0_1_wf
def scatter_S64_S50000x1_S50000_n_0_0_1 : ScatterDims S64 S50000x1 S50000 where
  updateWindowDims := []
  insertedWindowDims := [0]
  scatterDimsToOperandDims := [0]
  indexVectorDim := 1
  wf := scatter_S64_S50000x1_S50000_n_0_0_1_wf

class Facts : Prop extends Facts₀ where

variable [Facts]
-- ==== Proof.MatmulBlock.lean ====
/-
  The three matmul kernels' stored values, read at an index.

  Each kernel body loads a block of 1024 rows of its left operand and the whole weight matrix, rounds both to bf16,
  multiplies them on the matrix unit into a zero accumulator and stores the product. Over the extended reals a change
  of float format is the identity and the matrix unit's product is the exact sum, so entry (p, q) of the stored block
  is  Σ_k left(p, k) · weights(k, q)  over the 128 contracted positions — whatever order the hardware adds them in.
-/
import proofs.«138514_j7224134992541_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ### Kernel 0: the operand indices of its matmul, coordinate by coordinate -/

theorem lhs0_0 (p : Fin 1024) (q : Fin 128) (r : dot_S1024x128_S128x128_S1024x128_1_0_0_1_n_n.contr.Idx) :
    (dot_S1024x128_S128x128_S1024x128_1_0_0_1_n_n.lhsIdx (ix2 p q) r 0).val = p.val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs0_1 (p : Fin 1024) (q : Fin 128) (r : dot_S1024x128_S128x128_S1024x128_1_0_0_1_n_n.contr.Idx) :
    (dot_S1024x128_S128x128_S1024x128_1_0_0_1_n_n.lhsIdx (ix2 p q) r 1).val = (r ⟨0, by decide⟩).val :=
  dot_S1024x128_S128x128_S1024x128_1_0_0_1_n_n.lhsIdx_val_of_single rfl (ix2 p q) r
theorem rhs0_0 (p : Fin 1024) (q : Fin 128) (r : dot_S1024x128_S128x128_S1024x128_1_0_0_1_n_n.contr.Idx) :
    (dot_S1024x128_S128x128_S1024x128_1_0_0_1_n_n.rhsIdx (ix2 p q) r 0).val = (r ⟨0, by decide⟩).val :=
  dot_S1024x128_S128x128_S1024x128_1_0_0_1_n_n.rhsIdx_val_of_single rfl (ix2 p q) r
theorem rhs0_1 (p : Fin 1024) (q : Fin 128) (r : dot_S1024x128_S128x128_S1024x128_1_0_0_1_n_n.contr.Idx) :
    (dot_S1024x128_S128x128_S1024x128_1_0_0_1_n_n.rhsIdx (ix2 p q) r 1).val = q.val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- Kernel 0's stored value at entry (p, q) of its block: the row p of the left block times the column q of the
    weights, summed over the 128 contracted positions. The two roundings to bf16 and the cast to the same shape are
    the identity on extended reals, and the accumulator is the zero splat. -/
theorem pay0_apply (x0 : Vec Ideal S1024x128 .f32) (x1 : Vec Ideal S128x128 .f32) (p : Fin 1024) (q : Fin 128) :
    k0_pay1 (F := Ideal) x0 x1 (ix2 p q) = ∑ k : Fin 128, x0 (ix2 p k) * x1 (ix2 k q) := by
  unfold k0_pay1
  rw [shapeCast_self]
  simp only [matmul]
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p q) ((contrEquiv1 dot_S1024x128_S128x128_S1024x128_1_0_0_1_n_n 128 rfl rfl).symm k) = ix2 p k := funext fun a => Fin.ext (by
    match a with
    | ⟨0, _⟩ => exact lhs0_0 _ _ _
    | ⟨1, _⟩ => exact (lhs0_1 _ _ _).trans hk)
  have er : dot_S1024x128_S128x128_S1024x128_1_0_0_1_n_n.rhsIdx (ix2 p q) ((contrEquiv1 dot_S1024x128_S128x128_S1024x128_1_0_0_1_n_n 128 rfl rfl).symm k) = ix2 k q := funext fun a => Fin.ext (by
    match a with
    | ⟨0, _⟩ => exact (rhs0_0 _ _ _).trans hk
    | ⟨1, _⟩ => exact rhs0_1 _ _ _)
  rw [el, er]
  rfl

/-! ### Kernel 1 is the same text over the same shapes -/

theorem pay1_apply (x0 : Vec Ideal S1024x128 .f32) (x1 : Vec Ideal S128x128 .f32) (p : Fin 1024) (q : Fin 128) :
    k1_pay1 (F := Ideal) x0 x1 (ix2 p q) = ∑ k : Fin 128, x0 (ix2 p k) * x1 (ix2 k q) :=
  pay0_apply x0 x1 p q

/-! ### Kernel 2: the operand indices of its matmul, coordinate by coordinate -/

theorem lhs2_0 (p : Fin 1024) (q : Fin 10) (r : dot_S1024x128_S128x10_S1024x10_1_0_0_1_n_n.contr.Idx) :
    (dot_S1024x128_S128x10_S1024x10_1_0_0_1_n_n.lhsIdx (ix2 p q) r 0).val = p.val := by
  unfold DotDims.lhsIdx
  rw [dif_neg (show ¬(0 : Fin S1024x128.rank) ∈ dot_S1024x128_S128x10_S1024x10_1_0_0_1_n_n.lhsBatch by decide), dif_pos (show (0 : Fin S1024x128.rank) ∈ dot_S1024x128_S128x10_S1024x10_1_0_0_1_n_n.lhsNonContracting by decide)]
  rfl
theorem lhs2_1 (p : Fin 1024) (q : Fin 10) (r : dot_S1024x128_S128x10_S1024x10_1_0_0_1_n_n.contr.Idx) :
    (dot_S1024x128_S128x10_S1024x10_1_0_0_1_n_n.lhsIdx (ix2 p q) r 1).val = (r ⟨0, by decide⟩).val :=
  dot_S1024x128_S128x10_S1024x10_1_0_0_1_n_n.lhsIdx_val_of_single rfl (ix2 p q) r
theorem rhs2_0 (p : Fin 1024) (q : Fin 10) (r : dot_S1024x128_S128x10_S1024x10_1_0_0_1_n_n.contr.Idx) :
    (dot_S1024x128_S128x10_S1024x10_1_0_0_1_n_n.rhsIdx (ix2 p q) r 0).val = (r ⟨0, by decide⟩).val :=
  dot_S1024x128_S128x10_S1024x10_1_0_0_1_n_n.rhsIdx_val_of_single rfl (ix2 p q) r
theorem rhs2_1 (p : Fin 1024) (q : Fin 10) (r : dot_S1024x128_S128x10_S1024x10_1_0_0_1_n_n.contr.Idx) :
    (dot_S1024x128_S128x10_S1024x10_1_0_0_1_n_n.rhsIdx (ix2 p q) r 1).val = q.val := by
  unfold DotDims.rhsIdx
  rw [dif_neg (show ¬(1 : Fin S128x10.rank) ∈ dot_S1024x128_S128x10_S1024x10_1_0_0_1_n_n.rhsBatch by decide), dif_pos (show (1 : Fin S128x10.rank) ∈ dot_S1024x128_S128x10_S1024x10_1_0_0_1_n_n.rhsNonContracting by decide)]
  rfl

/-- Kernel 2's stored value at entry (p, q) of its block: the row p of the left block times the column q of the
    weights, summed over the 128 contracted positions. The two roundings to bf16 and the cast to the same shape are
    the identity on extended reals, and the accumulator is the zero splat. -/
theorem pay2_apply (x0 : Vec Ideal S1024x128 .f32) (x1 : Vec Ideal S128x10 .f32) (p : Fin 1024) (q : Fin 10) :
    k2_pay1 (F := Ideal) x0 x1 (ix2 p q) = ∑ k : Fin 128, x0 (ix2 p k) * x1 (ix2 k q) := by
  unfold k2_pay1
  rw [shapeCast_self]
  simp only [matmul]
  rw [Ideal.matmul_constant_zero_apply, ← Equiv.sum_comp (contrEquiv1 dot_S1024x128_S128x10_S1024x10_1_0_0_1_n_n 128 rfl rfl).symm]
  refine Finset.sum_congr rfl fun k _ => ?_
  have hk := contrEquiv1_symm_val dot_S1024x128_S128x10_S1024x10_1_0_0_1_n_n 128 rfl rfl k
  have el : dot_S1024x128_S128x10_S1024x10_1_0_0_1_n_n.lhsIdx (ix2 p q) ((contrEquiv1 dot_S1024x128_S128x10_S1024x10_1_0_0_1_n_n 128 rfl rfl).symm k) = ix2 p k := funext fun a => Fin.ext (by
    match a with
    | ⟨0, _⟩ => exact lhs2_0 _ _ _
    | ⟨1, _⟩ => exact (lhs2_1 _ _ _).trans hk)
  have er : dot_S1024x128_S128x10_S1024x10_1_0_0_1_n_n.rhsIdx (ix2 p q) ((contrEquiv1 dot_S1024x128_S128x10_S1024x10_1_0_0_1_n_n 128 rfl rfl).symm k) = ix2 k q := funext fun a => Fin.ext (by
    match a with
    | ⟨0, _⟩ => exact (rhs2_0 _ _ _).trans hk
    | ⟨1, _⟩ => exact rhs2_1 _ _ _)
  rw [el, er]
  rfl

end Cert.KernelIdeal.Block

end
-- ==== Proof.RegionValue.lean ====
/-
  Each kernel region's output array as one function of the arrays the region is entered with.

  A region runs its matmul body at 49 grid points; point t reads rows 1024·t … 1024·t + 1023 of the (padded) left array
  and the whole weight matrix, and writes the same rows of the output array. The blocks tile the 50176 rows, so after
  the region the output array holds, at (r, c),  Σ_k left(r, k) · weights(k, c):  the whole product, row by row.
-/
import proofs.«138514_j7224134992541_1_alg».proof.Proof.Gen.KernelIdeal.Frame
import proofs.«138514_j7224134992541_1_alg».proof.Proof.MatmulBlock
import Idealize.ShloMosaic.Lib.Pipeline.Value
import Idealize.ShloMosaic.Lib.ValueIdx

set_option maxRecDepth 16384

noncomputable section

namespace Cert.KernelIdeal.Region

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-- Position k of the row of the padded left array whose number is `r`. -/
abbrev rowAt (r : Fin 50176) (k : Fin 128) : S50176x128.Idx := fun a => match a with
  | ⟨0, _⟩ => ⟨r.val, r.isLt⟩
  | ⟨1, _⟩ => ⟨k.val, k.isLt⟩
/-- Position k of column `q` of a 128 × 128 weight matrix. -/
abbrev colAt128 (k : Fin 128) (q : Fin 128) : S128x128.Idx := fun a => match a with
  | ⟨0, _⟩ => ⟨k.val, k.isLt⟩
  | ⟨1, _⟩ => ⟨q.val, q.isLt⟩
/-- Position k of column `q` of the 128 × 10 weight matrix. -/
abbrev colAt10 (k : Fin 128) (q : Fin 10) : S128x10.Idx := fun a => match a with
  | ⟨0, _⟩ => ⟨k.val, k.isLt⟩
  | ⟨1, _⟩ => ⟨q.val, q.isLt⟩

/-- The whole product of a 50176 × 128 array and a 128 × 128 matrix over the extended reals. -/
def prod128 (x : (⟨S50176x128, .f32⟩ : BufTy).Contents (Elt Ideal)) (w : (⟨S128x128, .f32⟩ : BufTy).Contents (Elt Ideal)) :
    (⟨S50176x128, .f32⟩ : BufTy).Contents (Elt Ideal) :=
  fun i => ∑ k : Fin 128, x (rowAt (i 0) k) * w (colAt128 k (i 1))
/-- The whole product of a 50176 × 128 array and a 128 × 10 matrix over the extended reals. -/
def prod10 (x : (⟨S50176x128, .f32⟩ : BufTy).Contents (Elt Ideal)) (w : (⟨S128x10, .f32⟩ : BufTy).Contents (Elt Ideal)) :
    (⟨S50176x10, .f32⟩ : BufTy).Contents (Elt Ideal) :=
  fun i => ∑ k : Fin 128, x (rowAt (i 0) k) * w (colAt10 k (i 1))

-- the TensorCore's buffer contents when a region is entered
variable (V : (c : Dev nD) → (b : Ref sig .tc) → Buf (Elt Ideal) ((c : Thread nD τ).loc b))

/-! ## Region 0: `main_v33` after the launch, from `main_v32` and `main_arg4` as the region finds them -/

/-- The printed index maps over the 49 grid points: the left operand's block moves with the output's along the rows,
    the weights' block never moves, and no block leaves column block 0. -/
theorem idx_facts0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 48 :=
  (by decide +kernel : ∀ t : Fin grid0.N, _)

/-- Every one of the 49 row blocks is some grid point's. -/
theorem idx_onto0 : ∀ q0 : Fin 49, ∃ t : Fin cfg0.N, win0_2.index t = ![q0.val, 0] :=
  (by decide +kernel : ∀ q0 : Fin 49, ∃ t : Fin grid0.N, win0_2.index t = ![q0.val, 0])

/-- What grid point `t` writes back is block `t` of the whole product: entry (p, q) of the stored block is row
    1024·t + p of the left array times column q of the weights. -/
theorem flushed0_eq (c : Dev nD) (t : Fin cfg0.N) :
    (dat0 V c).flushed 2 t = ((cfg0.win 2).blk t).view.read (Elt Ideal) (prod128 (V c main_v32) (V c main_arg4)) := by
  show (cfg0.win 2).cut (grid0.coords t) ((dat0 V c).after 2 t) = _
  rw [after0_2]
  unfold out0_2
  rw [View.canon_unit_zero hz]
  simp only [View.ld_unit_zero (S := S1024x128) hz, View.ld_unit_zero (S := S128x128) hz]
  obtain ⟨e0, e1, e2, e3, e4, e5⟩ := idx_facts0 t
  funext j
  obtain ⟨p, q, rfl⟩ : ∃ (p : Fin 1024) (q : Fin 128), j = ix2 p q := ⟨j 0, j 1, eq_ix2 j⟩
  show k0_pay1 (iblk0 V c 0 t) (iblk0 V c 1 t) (ix2 p q) = prod128 (V c main_v32) (V c main_arg4) (((cfg0.win 2).blk t).view.emb (ix2 p q))
  refine (Block.pay0_apply (iblk0 V c 0 t) (iblk0 V c 1 t) p q).trans ?_
  unfold prod128
  refine Finset.sum_congr rfl fun k _ => ?_
  have h0 : iblk0 V c 0 t (ix2 p k) = V c main_v32 (rowAt (((cfg0.win 2).blk t).view.emb (ix2 p q) 0) k) := by
    show V c main_v32 (((cfg0.win 0).blk t).view.emb (ix2 p k)) = _
    refine congrArg (V c main_v32) (funext fun a => Fin.ext ?_)
    match a with
    | ⟨0, _⟩ => show win0_0.index t (0 : Fin 2) * 1024 + 1 * p.val = win0_2.index t (0 : Fin 2) * 1024 + 1 * p.val; omega
    | ⟨1, _⟩ => show win0_0.index t (1 : Fin 2) * 128 + 1 * k.val = k.val; omega
  have h1 : iblk0 V c 1 t (ix2 k q) = V c main_arg4 (colAt128 k (((cfg0.win 2).blk t).view.emb (ix2 p q) 1)) := by
    show V c main_arg4 (((cfg0.win 1).blk t).view.emb (ix2 k q)) = _
    refine congrArg (V c main_arg4) (funext fun a => Fin.ext ?_)
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  rw [h0, h1]

/-- An index of the output array is in point `t`'s block iff each coordinate is in the block's range on its axis. -/
theorem mem_blk0 (t : Fin cfg0.N) (i : S50176x128.Idx) :
    i ∈ ((cfg0.win 2).blk t).view.set ↔ ∀ a : Fin 2, win0_2.index t a * S1024x128.size a ≤ (i a).val ∧ (i a).val < win0_2.index t a * S1024x128.size a + S1024x128.size a := by
  show i ∈ ((View.whole main_v33).slice (win0_2.rect t)).set ↔ _
  rw [View.set_slice_whole, Rect.mem_set_unit]
  exact Iff.rfl

/-- The 49 blocks of 1024 rows tile the 50176 rows: row r is in the block of point r / 1024. -/
theorem cover0 (i : S50176x128.Idx) : ∃ t : Fin cfg0.N, (cfg0.win 2).flush t = true ∧ i ∈ ((cfg0.win 2).blk t).view.set := by
  have hi0 : (i 0).val < 50176 := (i 0).isLt
  have hi1 : (i 1).val < 128 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 128 ≤ (i 1).val ∧ (i 1).val < win0_2.index t (1 : Fin 2) * 128 + 128; omega

/-- The output array after region 0: the whole product of the two arrays the region was entered with. -/
theorem array0 (c : Dev nD) : (dat0 V c).arrAt 2 cfg0.N = prod128 (V c main_v32) (V c main_arg4) :=
  (dat0 V c).arrAt_eq_of_cover 2 _ (fun t _ => flushed0_eq V c t) (cover0)

/-! ## Region 1: `main_v53` after the launch, from `main_v52` and `main_arg6` as the region finds them -/

/-- The printed index maps over the 49 grid points: the left operand's block moves with the output's along the rows,
    the weights' block never moves, and no block leaves column block 0. -/
theorem idx_facts1 : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 48 :=
  (by decide +kernel : ∀ t : Fin grid1.N, _)

/-- Every one of the 49 row blocks is some grid point's. -/
theorem idx_onto1 : ∀ q0 : Fin 49, ∃ t : Fin cfg1.N, win1_2.index t = ![q0.val, 0] :=
  (by decide +kernel : ∀ q0 : Fin 49, ∃ t : Fin grid1.N, win1_2.index t = ![q0.val, 0])

/-- What grid point `t` writes back is block `t` of the whole product: entry (p, q) of the stored block is row
    1024·t + p of the left array times column q of the weights. -/
theorem flushed1_eq (c : Dev nD) (t : Fin cfg1.N) :
    (dat1 V c).flushed 2 t = ((cfg1.win 2).blk t).view.read (Elt Ideal) (prod128 (V c main_v52) (V c main_arg6)) := by
  show (cfg1.win 2).cut (grid1.coords t) ((dat1 V c).after 2 t) = _
  rw [after1_2]
  unfold out1_2
  rw [View.canon_unit_zero hz]
  simp only [View.ld_unit_zero (S := S1024x128) hz, View.ld_unit_zero (S := S128x128) hz]
  obtain ⟨e0, e1, e2, e3, e4, e5⟩ := idx_facts1 t
  funext j
  obtain ⟨p, q, rfl⟩ : ∃ (p : Fin 1024) (q : Fin 128), j = ix2 p q := ⟨j 0, j 1, eq_ix2 j⟩
  show k1_pay1 (iblk1 V c 0 t) (iblk1 V c 1 t) (ix2 p q) = prod128 (V c main_v52) (V c main_arg6) (((cfg1.win 2).blk t).view.emb (ix2 p q))
  refine (Block.pay1_apply (iblk1 V c 0 t) (iblk1 V c 1 t) p q).trans ?_
  unfold prod128
  refine Finset.sum_congr rfl fun k _ => ?_
  have h0 : iblk1 V c 0 t (ix2 p k) = V c main_v52 (rowAt (((cfg1.win 2).blk t).view.emb (ix2 p q) 0) k) := by
    show V c main_v52 (((cfg1.win 0).blk t).view.emb (ix2 p k)) = _
    refine congrArg (V c main_v52) (funext fun a => Fin.ext ?_)
    match a with
    | ⟨0, _⟩ => show win1_0.index t (0 : Fin 2) * 1024 + 1 * p.val = win1_2.index t (0 : Fin 2) * 1024 + 1 * p.val; omega
    | ⟨1, _⟩ => show win1_0.index t (1 : Fin 2) * 128 + 1 * k.val = k.val; omega
  have h1 : iblk1 V c 1 t (ix2 k q) = V c main_arg6 (colAt128 k (((cfg1.win 2).blk t).view.emb (ix2 p q) 1)) := by
    show V c main_arg6 (((cfg1.win 1).blk t).view.emb (ix2 k q)) = _
    refine congrArg (V c main_arg6) (funext fun a => Fin.ext ?_)
    match a with
    | ⟨0, _⟩ => show win1_1.index t (0 : Fin 2) * 128 + 1 * k.val = k.val; omega
    | ⟨1, _⟩ => show win1_1.index t (1 : Fin 2) * 128 + 1 * q.val = win1_2.index t (1 : Fin 2) * 128 + 1 * q.val; omega
  rw [h0, h1]

/-- An index of the output array is in point `t`'s block iff each coordinate is in the block's range on its axis. -/
theorem mem_blk1 (t : Fin cfg1.N) (i : S50176x128.Idx) :
    i ∈ ((cfg1.win 2).blk t).view.set ↔ ∀ a : Fin 2, win1_2.index t a * S1024x128.size a ≤ (i a).val ∧ (i a).val < win1_2.index t a * S1024x128.size a + S1024x128.size a := by
  show i ∈ ((View.whole main_v53).slice (win1_2.rect t)).set ↔ _
  rw [View.set_slice_whole, Rect.mem_set_unit]
  exact Iff.rfl

/-- The 49 blocks of 1024 rows tile the 50176 rows: row r is in the block of point r / 1024. -/
theorem cover1 (i : S50176x128.Idx) : ∃ t : Fin cfg1.N, (cfg1.win 2).flush t = true ∧ i ∈ ((cfg1.win 2).blk t).view.set := by
  have hi0 : (i 0).val < 50176 := (i 0).isLt
  have hi1 : (i 1).val < 128 := (i 1).isLt
  obtain ⟨t, ht⟩ := idx_onto1 ⟨(i 0).val / 1024, by omega⟩
  have q0 : win1_2.index t (0 : Fin 2) = (i 0).val / 1024 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 1024 ≤ (i 0).val ∧ (i 0).val < win1_2.index t (0 : Fin 2) * 1024 + 1024; omega
  | ⟨1, _⟩ => show win1_2.index t (1 : Fin 2) * 128 ≤ (i 1).val ∧ (i 1).val < win1_2.index t (1 : Fin 2) * 128 + 128; omega

/-- The output array after region 1: the whole product of the two arrays the region was entered with. -/
theorem array1 (c : Dev nD) : (dat1 V c).arrAt 2 cfg1.N = prod128 (V c main_v52) (V c main_arg6) :=
  (dat1 V c).arrAt_eq_of_cover 2 _ (fun t _ => flushed1_eq V c t) (cover1)

/-! ## Region 2: `main_v73` after the launch, from `main_v72` and `main_arg8` as the region finds them -/

/-- The printed index maps over the 49 grid points: the left operand's block moves with the output's along the rows,
    the weights' block never moves, and no block leaves column block 0. -/
theorem idx_facts2 : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 48 :=
  (by decide +kernel : ∀ t : Fin grid2.N, _)

/-- Every one of the 49 row blocks is some grid point's. -/
theorem idx_onto2 : ∀ q0 : Fin 49, ∃ t : Fin cfg2.N, win2_2.index t = ![q0.val, 0] :=
  (by decide +kernel : ∀ q0 : Fin 49, ∃ t : Fin grid2.N, win2_2.index t = ![q0.val, 0])

/-- What grid point `t` writes back is block `t` of the whole product: entry (p, q) of the stored block is row
    1024·t + p of the left array times column q of the weights. -/
theorem flushed2_eq (c : Dev nD) (t : Fin cfg2.N) :
    (dat2 V c).flushed 2 t = ((cfg2.win 2).blk t).view.read (Elt Ideal) (prod10 (V c main_v72) (V c main_arg8)) := by
  show (cfg2.win 2).cut (grid2.coords t) ((dat2 V c).after 2 t) = _
  rw [after2_2]
  unfold out2_2
  rw [View.canon_unit_zero hz]
  simp only [View.ld_unit_zero (S := S1024x128) hz, View.ld_unit_zero (S := S128x10) hz]
  obtain ⟨e0, e1, e2, e3, e4, e5⟩ := idx_facts2 t
  funext j
  obtain ⟨p, q, rfl⟩ : ∃ (p : Fin 1024) (q : Fin 10), j = ix2 p q := ⟨j 0, j 1, eq_ix2 j⟩
  show k2_pay1 (iblk2 V c 0 t) (iblk2 V c 1 t) (ix2 p q) = prod10 (V c main_v72) (V c main_arg8) (((cfg2.win 2).blk t).view.emb (ix2 p q))
  refine (Block.pay2_apply (iblk2 V c 0 t) (iblk2 V c 1 t) p q).trans ?_
  unfold prod10
  refine Finset.sum_congr rfl fun k _ => ?_
  have h0 : iblk2 V c 0 t (ix2 p k) = V c main_v72 (rowAt (((cfg2.win 2).blk t).view.emb (ix2 p q) 0) k) := by
    show V c main_v72 (((cfg2.win 0).blk t).view.emb (ix2 p k)) = _
    refine congrArg (V c main_v72) (funext fun a => Fin.ext ?_)
    match a with
    | ⟨0, _⟩ => show win2_0.index t (0 : Fin 2) * 1024 + 1 * p.val = win2_2.index t (0 : Fin 2) * 1024 + 1 * p.val; omega
    | ⟨1, _⟩ => show win2_0.index t (1 : Fin 2) * 128 + 1 * k.val = k.val; omega
  have h1 : iblk2 V c 1 t (ix2 k q) = V c main_arg8 (colAt10 k (((cfg2.win 2).blk t).view.emb (ix2 p q) 1)) := by
    show V c main_arg8 (((cfg2.win 1).blk t).view.emb (ix2 k q)) = _
    refine congrArg (V c main_arg8) (funext fun a => Fin.ext ?_)
    match a with
    | ⟨0, _⟩ => show win2_1.index t (0 : Fin 2) * 128 + 1 * k.val = k.val; omega
    | ⟨1, _⟩ => show win2_1.index t (1 : Fin 2) * 10 + 1 * q.val = win2_2.index t (1 : Fin 2) * 10 + 1 * q.val; omega
  rw [h0, h1]

/-- An index of the output array is in point `t`'s block iff each coordinate is in the block's range on its axis. -/
theorem mem_blk2 (t : Fin cfg2.N) (i : S50176x10.Idx) :
    i ∈ ((cfg2.win 2).blk t).view.set ↔ ∀ a : Fin 2, win2_2.index t a * S1024x10.size a ≤ (i a).val ∧ (i a).val < win2_2.index t a * S1024x10.size a + S1024x10.size a := by
  show i ∈ ((View.whole main_v73).slice (win2_2.rect t)).set ↔ _
  rw [View.set_slice_whole, Rect.mem_set_unit]
  exact Iff.rfl

/-- The 49 blocks of 1024 rows tile the 50176 rows: row r is in the block of point r / 1024. -/
theorem cover2 (i : S50176x10.Idx) : ∃ t : Fin cfg2.N, (cfg2.win 2).flush t = true ∧ i ∈ ((cfg2.win 2).blk t).view.set := by
  have hi0 : (i 0).val < 50176 := (i 0).isLt
  have hi1 : (i 1).val < 10 := (i 1).isLt
  obtain ⟨t, ht⟩ := idx_onto2 ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 10 ≤ (i 1).val ∧ (i 1).val < win2_2.index t (1 : Fin 2) * 10 + 10; omega

/-- The output array after region 2: the whole product of the two arrays the region was entered with. -/
theorem array2 (c : Dev nD) : (dat2 V c).arrAt 2 cfg2.N = prod10 (V c main_v72) (V c main_arg8) :=
  (dat2 V c).arrAt_eq_of_cover 2 _ (fun t _ => flushed2_eq V c t) (cover2)

end Cert.KernelIdeal.Region

end
-- ==== Proof.DotBridge.lean ====
/-
  The kernel's padded, tiled matmul against the reference's one `dot_general`.

  The kernel pads its 50000 × 128 left array with 176 rows to 50176 rows, multiplies block by block, and keeps the
  first 50000 rows of the product. Over the extended reals row r of the product depends only on row r of the left
  array, so the rows that were added never reach a row that is kept, and what is kept is, entry by entry,
  Σ_k x(r, k) · w(k, c)  — the host's `dot_general` of the unpadded array, which at the ideal values is the same sum.
-/
import proofs.«138514_j7224134992541_1_alg».proof.Proof.Gen.ReferenceIdeal
import proofs.«138514_j7224134992541_1_alg».proof.Proof.RegionValue
import Idealize.ShloMosaic.Lib.KernelVsHost
import Idealize.ShloMosaic.Lib.Pipeline.Value
import Idealize.ShloMosaic.Lib.ValueIdx
import Idealize.ShloMosaic.PureOps.Ideal.Laws

noncomputable section

namespace Cert.KernelIdeal.DotBridge

open Cert.KernelIdeal Idealize.ShloMosaic Idealize.ShloMosaic.ValueIdx

/-! ### The reference's `dot_general` into 128 columns, read at an index -/

theorem hl128_0 (p : Fin 50000) (q : Fin 128) (r : Cert.ReferenceIdeal.dot_S50000x128_S128x128_S50000x128_1_0_0_1_n_n.contr.Idx) :
    (Cert.ReferenceIdeal.dot_S50000x128_S128x128_S50000x128_1_0_0_1_n_n.lhsIdx (ix2 p q) r 0).val = p.val := by
  unfold DotDims.lhsIdx
  rw [dif_neg (show ¬(0 : Fin Cert.ReferenceIdeal.S50000x128.rank) ∈ Cert.ReferenceIdeal.dot_S50000x128_S128x128_S50000x128_1_0_0_1_n_n.lhsBatch by decide), dif_pos (show (0 : Fin Cert.ReferenceIdeal.S50000x128.rank) ∈ Cert.ReferenceIdeal.dot_S50000x128_S128x128_S50000x128_1_0_0_1_n_n.lhsNonContracting by decide)]
  rfl
theorem hl128_1 (p : Fin 50000) (q : Fin 128) (r : Cert.ReferenceIdeal.dot_S50000x128_S128x128_S50000x128_1_0_0_1_n_n.contr.Idx) :
    (Cert.ReferenceIdeal.dot_S50000x128_S128x128_S50000x128_1_0_0_1_n_n.lhsIdx (ix2 p q) r 1).val = (r ⟨0, by decide⟩).val :=
  Cert.ReferenceIdeal.dot_S50000x128_S128x128_S50000x128_1_0_0_1_n_n.lhsIdx_val_of_single rfl (ix2 p q) r
theorem hr128_0 (p : Fin 50000) (q : Fin 128) (r : Cert.ReferenceIdeal.dot_S50000x128_S128x128_S50000x128_1_0_0_1_n_n.contr.Idx) :
    (Cert.ReferenceIdeal.dot_S50000x128_S128x128_S50000x128_1_0_0_1_n_n.rhsIdx (ix2 p q) r 0).val = (r ⟨0, by decide⟩).val :=
  Cert.ReferenceIdeal.dot_S50000x128_S128x128_S50000x128_1_0_0_1_n_n.rhsIdx_val_of_single rfl (ix2 p q) r
theorem hr128_1 (p : Fin 50000) (q : Fin 128) (r : Cert.ReferenceIdeal.dot_S50000x128_S128x128_S50000x128_1_0_0_1_n_n.contr.Idx) :
    (Cert.ReferenceIdeal.dot_S50000x128_S128x128_S50000x128_1_0_0_1_n_n.rhsIdx (ix2 p q) r 1).val = q.val := by
  unfold DotDims.rhsIdx
  rw [dif_neg (show ¬(1 : Fin Cert.ReferenceIdeal.S128x128.rank) ∈ Cert.ReferenceIdeal.dot_S50000x128_S128x128_S50000x128_1_0_0_1_n_n.rhsBatch by decide), dif_pos (show (1 : Fin Cert.ReferenceIdeal.S128x128.rank) ∈ Cert.ReferenceIdeal.dot_S50000x128_S128x128_S50000x128_1_0_0_1_n_n.rhsNonContracting by decide)]
  rfl

/-- Over the extended reals the host's `dot_general` at (p, q) is row p of the left array times column q of the weights. -/
theorem hostDot128_apply (x : (⟨Cert.ReferenceIdeal.S50000x128, .f32⟩ : BufTy).Contents (Elt Ideal))
    (w : (⟨Cert.ReferenceIdeal.S128x128, .f32⟩ : BufTy).Contents (Elt Ideal)) (p : Fin 50000) (q : Fin 128) :
    Host.dotGeneral (F := Ideal) (φ₁ := .f32) (φ₂ := .f32) Cert.ReferenceIdeal.dot_S50000x128_S128x128_S50000x128_1_0_0_1_n_n none x w (ix2 p q) = ∑ k : Fin 128, x (ix2 p k) * w (ix2 k q) := by
  simp only [Host.dotGeneral]
  rw [Ideal.dotGeneral_apply, ← Equiv.sum_comp (contrEquiv1 Cert.ReferenceIdeal.dot_S50000x128_S128x128_S50000x128_1_0_0_1_n_n 128 rfl rfl).symm]
  refine Finset.sum_congr rfl fun k _ => ?_
  have hk := contrEquiv1_symm_val Cert.ReferenceIdeal.dot_S50000x128_S128x128_S50000x128_1_0_0_1_n_n 128 rfl rfl k
  have el : Cert.ReferenceIdeal.dot_S50000x128_S128x128_S50000x128_1_0_0_1_n_n.lhsIdx (ix2 p q) ((contrEquiv1 Cert.ReferenceIdeal.dot_S50000x128_S128x128_S50000x128_1_0_0_1_n_n 128 rfl rfl).symm k) = ix2 p k := funext fun a => Fin.ext (by
    match a with
    | ⟨0, _⟩ => exact hl128_0 _ _ _
    | ⟨1, _⟩ => exact (hl128_1 _ _ _).trans hk)
  have er : Cert.ReferenceIdeal.dot_S50000x128_S128x128_S50000x128_1_0_0_1_n_n.rhsIdx (ix2 p q) ((contrEquiv1 Cert.ReferenceIdeal.dot_S50000x128_S128x128_S50000x128_1_0_0_1_n_n 128 rfl rfl).symm k) = ix2 k q := funext fun a => Fin.ext (by
    match a with
    | ⟨0, _⟩ => exact (hr128_0 _ _ _).trans hk
    | ⟨1, _⟩ => exact hr128_1 _ _ _)
  rw [el, er]

/-! ### The reference's `dot_general` into 10 columns, read at an index -/

theorem hl10_0 (p : Fin 50000) (q : Fin 10) (r : Cert.ReferenceIdeal.dot_S50000x128_S128x10_S50000x10_1_0_0_1_n_n.contr.Idx) :
    (Cert.ReferenceIdeal.dot_S50000x128_S128x10_S50000x10_1_0_0_1_n_n.lhsIdx (ix2 p q) r 0).val = p.val := by
  unfold DotDims.lhsIdx
  rw [dif_neg (show ¬(0 : Fin Cert.ReferenceIdeal.S50000x128.rank) ∈ Cert.ReferenceIdeal.dot_S50000x128_S128x10_S50000x10_1_0_0_1_n_n.lhsBatch by decide), dif_pos (show (0 : Fin Cert.ReferenceIdeal.S50000x128.rank) ∈ Cert.ReferenceIdeal.dot_S50000x128_S128x10_S50000x10_1_0_0_1_n_n.lhsNonContracting by decide)]
  rfl
theorem hl10_1 (p : Fin 50000) (q : Fin 10) (r : Cert.ReferenceIdeal.dot_S50000x128_S128x10_S50000x10_1_0_0_1_n_n.contr.Idx) :
    (Cert.ReferenceIdeal.dot_S50000x128_S128x10_S50000x10_1_0_0_1_n_n.lhsIdx (ix2 p q) r 1).val = (r ⟨0, by decide⟩).val :=
  Cert.ReferenceIdeal.dot_S50000x128_S128x10_S50000x10_1_0_0_1_n_n.lhsIdx_val_of_single rfl (ix2 p q) r
theorem hr10_0 (p : Fin 50000) (q : Fin 10) (r : Cert.ReferenceIdeal.dot_S50000x128_S128x10_S50000x10_1_0_0_1_n_n.contr.Idx) :
    (Cert.ReferenceIdeal.dot_S50000x128_S128x10_S50000x10_1_0_0_1_n_n.rhsIdx (ix2 p q) r 0).val = (r ⟨0, by decide⟩).val :=
  Cert.ReferenceIdeal.dot_S50000x128_S128x10_S50000x10_1_0_0_1_n_n.rhsIdx_val_of_single rfl (ix2 p q) r
theorem hr10_1 (p : Fin 50000) (q : Fin 10) (r : Cert.ReferenceIdeal.dot_S50000x128_S128x10_S50000x10_1_0_0_1_n_n.contr.Idx) :
    (Cert.ReferenceIdeal.dot_S50000x128_S128x10_S50000x10_1_0_0_1_n_n.rhsIdx (ix2 p q) r 1).val = q.val := by
  unfold DotDims.rhsIdx
  rw [dif_neg (show ¬(1 : Fin Cert.ReferenceIdeal.S128x10.rank) ∈ Cert.ReferenceIdeal.dot_S50000x128_S128x10_S50000x10_1_0_0_1_n_n.rhsBatch by decide), dif_pos (show (1 : Fin Cert.ReferenceIdeal.S128x10.rank) ∈ Cert.ReferenceIdeal.dot_S50000x128_S128x10_S50000x10_1_0_0_1_n_n.rhsNonContracting by decide)]
  rfl

/-- Over the extended reals the host's `dot_general` at (p, q) is row p of the left array times column q of the weights. -/
theorem hostDot10_apply (x : (⟨Cert.ReferenceIdeal.S50000x128, .f32⟩ : BufTy).Contents (Elt Ideal))
    (w : (⟨Cert.ReferenceIdeal.S128x10, .f32⟩ : BufTy).Contents (Elt Ideal)) (p : Fin 50000) (q : Fin 10) :
    Host.dotGeneral (F := Ideal) (φ₁ := .f32) (φ₂ := .f32) Cert.ReferenceIdeal.dot_S50000x128_S128x10_S50000x10_1_0_0_1_n_n none x w (ix2 p q) = ∑ k : Fin 128, x (ix2 p k) * w (ix2 k q) := by
  simp only [Host.dotGeneral]
  rw [Ideal.dotGeneral_apply, ← Equiv.sum_comp (contrEquiv1 Cert.ReferenceIdeal.dot_S50000x128_S128x10_S50000x10_1_0_0_1_n_n 128 rfl rfl).symm]
  refine Finset.sum_congr rfl fun k _ => ?_
  have hk := contrEquiv1_symm_val Cert.ReferenceIdeal.dot_S50000x128_S128x10_S50000x10_1_0_0_1_n_n 128 rfl rfl k
  have el : Cert.ReferenceIdeal.dot_S50000x128_S128x10_S50000x10_1_0_0_1_n_n.lhsIdx (ix2 p q) ((contrEquiv1 Cert.ReferenceIdeal.dot_S50000x128_S128x10_S50000x10_1_0_0_1_n_n 128 rfl rfl).symm k) = ix2 p k := funext fun a => Fin.ext (by
    match a with
    | ⟨0, _⟩ => exact hl10_0 _ _ _
    | ⟨1, _⟩ => exact (hl10_1 _ _ _).trans hk)
  have er : Cert.ReferenceIdeal.dot_S50000x128_S128x10_S50000x10_1_0_0_1_n_n.rhsIdx (ix2 p q) ((contrEquiv1 Cert.ReferenceIdeal.dot_S50000x128_S128x10_S50000x10_1_0_0_1_n_n 128 rfl rfl).symm k) = ix2 k q := funext fun a => Fin.ext (by
    match a with
    | ⟨0, _⟩ => exact (hr10_0 _ _ _).trans hk
    | ⟨1, _⟩ => exact hr10_1 _ _ _)
  rw [el, er]

/-! ### Padding, multiplying and slicing is the one host product -/

/-- The first 50000 rows of the whole product of the zero-padded array with the weights are the host's
    `dot_general` of the unpadded array with the weights: row r < 50000 of the padded array is row r of the array,
    and the rows the padding adds are sliced away again (whatever value they were padded with). -/
theorem slice_prod_pad128 (x : (⟨S50000x128, .f32⟩ : BufTy).Contents (Elt Ideal)) (z : (⟨S_, .f32⟩ : BufTy).Contents (Elt Ideal))
    (w : (⟨S128x128, .f32⟩ : BufTy).Contents (Elt Ideal))
    (hp : S50000x128.Pads (![0, 0] : Fin 2 → Nat) ![176, 0] ![0, 0] S50176x128) (hu : 0 < S_.numel)
    (hs : S50176x128.Slices ![0, 0] S50000x128) :
    extractStridedSlice S50000x128 ![0, 0] (Region.prod128 (pad S50176x128 ![0, 0] ![176, 0] ![0, 0] x z hp hu) w) hs
      = Host.dotGeneral (F := Ideal) (φ₁ := .f32) (φ₂ := .f32) Cert.ReferenceIdeal.dot_S50000x128_S128x128_S50000x128_1_0_0_1_n_n none x w := by
  funext i
  obtain ⟨p, q, rfl⟩ : ∃ (p : Fin 50000) (q : Fin 128), i = ix2 p q := ⟨i 0, i 1, eq_ix2 i⟩
  rw [hostDot128_apply]
  have hP : p.val < 50176 := by have := p.isLt; omega
  rw [extractStridedSlice_apply ![0, 0] _ hs (ix2 p q) (ix2 (⟨p.val, hP⟩ : Fin 50176) q) (fun a => by
    match a with
    | ⟨0, _⟩ => show p.val = 0 + p.val; omega
    | ⟨1, _⟩ => show q.val = 0 + q.val; omega)]
  unfold Region.prod128
  refine Finset.sum_congr rfl fun k _ => ?_
  have hx : pad S50176x128 ![0, 0] ![176, 0] ![0, 0] x z hp hu (Region.rowAt (⟨p.val, hP⟩ : Fin 50176) k) = x (ix2 p k) :=
    pad_apply_of_inside _ _ _ x z hp hu _ (ix2 p k) (fun a => by
      match a with
      | ⟨0, _⟩ => show p.val = 0 + p.val * (0 + 1); omega
      | ⟨1, _⟩ => show k.val = 0 + k.val * (0 + 1); omega)
  have hw : Region.colAt128 k q = ix2 k q := funext fun a => Fin.ext (by
    match a with
    | ⟨0, _⟩ => rfl
    | ⟨1, _⟩ => rfl)
  show pad S50176x128 ![0, 0] ![176, 0] ![0, 0] x z hp hu (Region.rowAt (⟨p.val, hP⟩ : Fin 50176) k) * w (Region.colAt128 k q) = _
  rw [hx, hw]

/-- The first 50000 rows of the whole product of the zero-padded array with the weights are the host's
    `dot_general` of the unpadded array with the weights: row r < 50000 of the padded array is row r of the array,
    and the rows the padding adds are sliced away again (whatever value they were padded with). -/
theorem slice_prod_pad10 (x : (⟨S50000x128, .f32⟩ : BufTy).Contents (Elt Ideal)) (z : (⟨S_, .f32⟩ : BufTy).Contents (Elt Ideal))
    (w : (⟨S128x10, .f32⟩ : BufTy).Contents (Elt Ideal))
    (hp : S50000x128.Pads (![0, 0] : Fin 2 → Nat) ![176, 0] ![0, 0] S50176x128) (hu : 0 < S_.numel)
    (hs : S50176x10.Slices ![0, 0] S50000x10) :
    extractStridedSlice S50000x10 ![0, 0] (Region.prod10 (pad S50176x128 ![0, 0] ![176, 0] ![0, 0] x z hp hu) w) hs
      = Host.dotGeneral (F := Ideal) (φ₁ := .f32) (φ₂ := .f32) Cert.ReferenceIdeal.dot_S50000x128_S128x10_S50000x10_1_0_0_1_n_n none x w := by
  funext i
  obtain ⟨p, q, rfl⟩ : ∃ (p : Fin 50000) (q : Fin 10), i = ix2 p q := ⟨i 0, i 1, eq_ix2 i⟩
  rw [hostDot10_apply]
  have hP : p.val < 50176 := by have := p.isLt; omega
  rw [extractStridedSlice_apply ![0, 0] _ hs (ix2 p q) (ix2 (⟨p.val, hP⟩ : Fin 50176) q) (fun a => by
    match a with
    | ⟨0, _⟩ => show p.val = 0 + p.val; omega
    | ⟨1, _⟩ => show q.val = 0 + q.val; omega)]
  unfold Region.prod10
  refine Finset.sum_congr rfl fun k _ => ?_
  have hx : pad S50176x128 ![0, 0] ![176, 0] ![0, 0] x z hp hu (Region.rowAt (⟨p.val, hP⟩ : Fin 50176) k) = x (ix2 p k) :=
    pad_apply_of_inside _ _ _ x z hp hu _ (ix2 p k) (fun a => by
      match a with
      | ⟨0, _⟩ => show p.val = 0 + p.val * (0 + 1); omega
      | ⟨1, _⟩ => show k.val = 0 + k.val * (0 + 1); omega)
  have hw : Region.colAt10 k q = ix2 k q := funext fun a => Fin.ext (by
    match a with
    | ⟨0, _⟩ => rfl
    | ⟨1, _⟩ => rfl)
  show pad S50176x128 ![0, 0] ![176, 0] ![0, 0] x z hp hu (Region.rowAt (⟨p.val, hP⟩ : Fin 50176) k) * w (Region.colAt10 k q) = _
  rw [hx, hw]

end Cert.KernelIdeal.DotBridge

end
-- ==== Proof.LibConcatenateSimp.lean ====
/-
  Lemmas that let `simp` evaluate a fold of host operations through a `concatenate`.

  The contents of a buffer after a list of host operations is a fold; the library's result lemmas rewrite it one
  operation at a time. A `concatenate` holds its operands as the second components of dependent pairs, where `simp`
  does not rewrite on its own, and a `concatenate` of four operands printed over a literal family `![a, b, c, d]` looks
  its operands up at `![a, b, c, d] k`. With the two congruence lemmas below (tagged `congr` where they are used) and the
  four evaluations of a literal 4-vector added to the simp set, the fold is evaluated inside the operands as well.
-/
import Idealize.ShloMosaic.Lib.Pipeline.Value

namespace Cert.LibConcatenateSimp

open Idealize.ShloMosaic

/-- A two-operand `concatenate` of equal operands is the same array. -/
theorem concatenate2_congr {α : Type} {t s₁ s₂ : Shape} (a : Fin t.rank) {x₁ x₁' : s₁.Idx → α} {x₂ x₂' : s₂.Idx → α}
    (h : Shape.Concatenates [s₁, s₂] t a) (e₁ : x₁ = x₁') (e₂ : x₂ = x₂') :
    concatenate t a [⟨s₁, x₁⟩, ⟨s₂, x₂⟩] h = concatenate t a [⟨s₁, x₁'⟩, ⟨s₂, x₂'⟩] h := by subst e₁ e₂; rfl

/-- A four-operand `concatenate` of equal operands is the same array. -/
theorem concatenate4_congr {α : Type} {t s₁ s₂ s₃ s₄ : Shape} (a : Fin t.rank) {x₁ x₁' : s₁.Idx → α} {x₂ x₂' : s₂.Idx → α}
    {x₃ x₃' : s₃.Idx → α} {x₄ x₄' : s₄.Idx → α}
    (h : Shape.Concatenates [s₁, s₂, s₃, s₄] t a) (e₁ : x₁ = x₁') (e₂ : x₂ = x₂') (e₃ : x₃ = x₃') (e₄ : x₄ = x₄') :
    concatenate t a [⟨s₁, x₁⟩, ⟨s₂, x₂⟩, ⟨s₃, x₃⟩, ⟨s₄, x₄⟩] h = concatenate t a [⟨s₁, x₁'⟩, ⟨s₂, x₂'⟩, ⟨s₃, x₃'⟩, ⟨s₄, x₄'⟩] h := by
  subst e₁ e₂ e₃ e₄; rfl

theorem vec4_at0 {α : Type} (a b c d : α) : (![a, b, c, d] : Fin 4 → α) 0 = a := rfl
theorem vec4_at1 {α : Type} (a b c d : α) : (![a, b, c, d] : Fin 4 → α) 1 = b := rfl
theorem vec4_at2 {α : Type} (a b c d : α) : (![a, b, c, d] : Fin 4 → α) 2 = c := rfl
theorem vec4_at3 {α : Type} (a b c d : α) : (![a, b, c, d] : Fin 4 → α) 3 = d := rfl

end Cert.LibConcatenateSimp
-- ==== Proof.Stages.lean ====
/-
  The idealized kernel program's buffers at each boundary of its run, against the stages of the reference.

  The kernel program and the reference apply the same host operations — the symmetric normalisation of the graph with
  self-loops, three rounds of gather, scale, scatter-add and bias (the first two followed by a relu), the mean over each
  graph and the log-softmax — and differ only in how each round's dense product is formed: the reference by one
  `dot_general`, the kernel program by padding the rows to a multiple of 1024, a tiled matmul region, and a slice back
  to 50000 rows. Walking the kernel program's boundaries in order: what enters each region is the padded stage of
  the reference, what leaves it is the whole product (Region), whose first 50000 rows are the reference's
  `dot_general` (DotBridge), and every buffer a region does not own is carried across it unchanged. So the result buffer
  at the last boundary is the reference's last stage, as one function of the ten argument arrays.
-/
import proofs.«138514_j7224134992541_1_alg».proof.Proof.Gen.KernelIdeal.Frame
import proofs.«138514_j7224134992541_1_alg».proof.Proof.Gen.ReferenceIdeal.Read
import proofs.«138514_j7224134992541_1_alg».proof.Proof.RegionValue
import proofs.«138514_j7224134992541_1_alg».proof.Proof.DotBridge
import proofs.«138514_j7224134992541_1_alg».proof.Proof.LibConcatenateSimp
import Idealize.ShloMosaic.Lib.StableHlo.Run

set_option maxRecDepth 16384

noncomputable section

namespace Cert.KernelIdeal.Stages

open Cert.KernelIdeal Cert.KernelIdeal.Gen Idealize.ShloMosaic Idealize.ShloMosaic.TcCoe Idealize.SL.Sem Idealize.ShloMosaic.StableHlo
open Cert.ReferenceIdeal.Read

attribute [local congr] Cert.LibConcatenateSimp.concatenate2_congr

variable (m : (ℓ : Loc nD τ sig) → Buf (Elt Ideal) ℓ) (ρ : Dev nD → PrngReg) (c : Dev nD)

/-- A 50000 × 128 array with 176 rows added below it (the rows' value plays no part: they are sliced away again). -/
def padRows (x : (⟨S50000x128, .f32⟩ : BufTy).Contents (Elt Ideal)) : (⟨S50176x128, .f32⟩ : BufTy).Contents (Elt Ideal) :=
  pad S50176x128 ![0, 0] ![176, 0] ![0, 0] x (sitofp (F := Ideal) .f32 (constantI S_ 32 0#32)) pads_S50000x128_S50176x128_01760_000 h_S_

/-! ## The first 50000 rows of a whole product of a padded array: the host's product -/

theorem slice_prod128 (x : (⟨S50000x128, .f32⟩ : BufTy).Contents (Elt Ideal)) (w : (⟨S128x128, .f32⟩ : BufTy).Contents (Elt Ideal)) :
    extractStridedSlice S50000x128 ![0, 0] (Region.prod128 (padRows x) w) slices_S50176x128_S50000x128_0_0
      = Host.dotGeneral (F := Ideal) (φ₁ := .f32) (φ₂ := .f32) Cert.ReferenceIdeal.dot_S50000x128_S128x128_S50000x128_1_0_0_1_n_n none x w :=
  DotBridge.slice_prod_pad128 x _ w _ _ _
theorem slice_prod10 (x : (⟨S50000x128, .f32⟩ : BufTy).Contents (Elt Ideal)) (w : (⟨S128x10, .f32⟩ : BufTy).Contents (Elt Ideal)) :
    extractStridedSlice S50000x10 ![0, 0] (Region.prod10 (padRows x) w) slices_S50176x10_S50000x10_0_0
      = Host.dotGeneral (F := Ideal) (φ₁ := .f32) (φ₂ := .f32) Cert.ReferenceIdeal.dot_S50000x128_S128x10_S50000x10_1_0_0_1_n_n none x w :=
  DotBridge.slice_prod_pad10 x _ w _ _ _

/-! ## A region leaves every buffer it does not own as it found it -/

theorem W5_keep (b : Ref sig .tc) (hb : ∀ w, Pipeline.arrRef spec0 w ≠ b) :
    W5 m ρ c (no_index (Proc.devRef .tc b)) = W4 m ρ c (Proc.devRef .tc b) := W5_of_ne m ρ c b hb
theorem W10_keep (b : Ref sig .tc) (hb : ∀ w, Pipeline.arrRef spec1 w ≠ b) :
    W10 m ρ c (no_index (Proc.devRef .tc b)) = W9 m ρ c (Proc.devRef .tc b) := W10_of_ne m ρ c b hb
theorem W15_keep (b : Ref sig .tc) (hb : ∀ w, Pipeline.arrRef spec2 w ≠ b) :
    W15 m ρ c (no_index (Proc.devRef .tc b)) = W14 m ρ c (Proc.devRef .tc b) := W15_of_ne m ρ c b hb

/-! ## Round 1 -/

/-- Region 0 is entered with the node features padded. -/
theorem V4_v32 : V4 m ρ c main_v32 = padRows (m ((c : Thread nD τ).loc main_arg0)) := by
  show W4 m ρ c (Proc.devRef .tc main_v32) = _
  simp (disch := decide) only [W4, W3, W2, W1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
  rfl
/-- … and with the first weight matrix as launched. -/
theorem V4_arg4 : V4 m ρ c main_arg4 = (m ((c : Thread nD τ).loc main_arg4)) := by
  show W4 m ρ c (Proc.devRef .tc main_arg4) = _
  simp (disch := decide) only [W4, W3, W2, W1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne']
/-- Region 0 leaves the whole product of the padded features and the first weight matrix. -/
theorem W5_v33 : W5 m ρ c (no_index (Proc.devRef .tc main_v33)) = Region.prod128 (padRows (m ((c : Thread nD τ).loc main_arg0))) (m ((c : Thread nD τ).loc main_arg4)) :=
  ((W5_arr m ρ c 2).trans (Region.array0 (V4 m ρ) c)).trans (congrArg₂ Region.prod128 (V4_v32 m ρ c) (V4_arg4 m ρ c))

/-! ## Round 2 -/

set_option maxHeartbeats 8000000 in
/-- Region 1 is entered with the first round's output (after its relu) padded. -/
theorem V9_v52 : V9 m ρ c main_v52 = padRows (val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5))) := by
  show W9 m ρ c (Proc.devRef .tc main_v52) = _
  simp (disch := decide) only [W9, W8, W7, W6, W4, W3, W2, W1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W5_keep, W5_v33, cast_cast, cast_eq]
  rw [slice_prod128]
  rfl
/-- … and with the second weight matrix as launched. -/
theorem V9_arg6 : V9 m ρ c main_arg6 = (m ((c : Thread nD τ).loc main_arg6)) := by
  show W9 m ρ c (Proc.devRef .tc main_arg6) = _
  simp (disch := decide) only [W9, W8, W7, W6, W4, W3, W2, W1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W5_keep, cast_cast, cast_eq]
/-- Region 1 leaves the whole product of that and the second weight matrix. -/
theorem W10_v53 : W10 m ρ c (no_index (Proc.devRef .tc main_v53)) = Region.prod128 (padRows (val_main_v49 (F := Ideal) (m ((c : Thread nD τ).loc main_arg0)) (m ((c : Thread nD τ).loc main_arg1)) (m ((c : Thread nD τ).loc main_arg2)) (m ((c : Thread nD τ).loc main_arg4)) (m ((c : Thread nD τ).loc main_arg5)))) (m ((c : Thread nD τ).loc main_arg6)) :=
  ((W10_arr m ρ c 2).trans (Region.array1 (V9 m ρ) c)).trans (congrArg₂ Region.prod128 (V9_v52 m ρ c) (V9_arg6 m ρ c))

/-! ## Round 3 -/

set_option maxHeartbeats 16000000 in
/-- Region 2 is entered with the second round's output (after its relu) padded. -/
theorem V14_v72 : V14 m ρ c main_v72 = padRows (val_main_v67 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7))) := by
  show W14 m ρ c (Proc.devRef .tc main_v72) = _
  simp (disch := decide) only [W14, W13, W12, W11, W9, W8, W7, W6, W4, W3, W2, W1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W10_keep, W5_keep, W10_v53, cast_cast, cast_eq]
  rw [slice_prod128]
  rfl
/-- … and with the third weight matrix as launched. -/
theorem V14_arg8 : V14 m ρ c main_arg8 = (m ((c : Thread nD τ).loc main_arg8)) := by
  show W14 m ρ c (Proc.devRef .tc main_arg8) = _
  simp (disch := decide) only [W14, W13, W12, W11, W9, W8, W7, W6, W4, W3, W2, W1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W10_keep, W5_keep, cast_cast, cast_eq]
/-- Region 2 leaves the whole product of that and the third weight matrix. -/
theorem W15_v73 : W15 m ρ c (no_index (Proc.devRef .tc main_v73)) = Region.prod10 (padRows (val_main_v67 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)))) (m ((c : Thread nD τ).loc main_arg8)) :=
  ((W15_arr m ρ c 2).trans (Region.array2 (V14 m ρ) c)).trans (congrArg₂ Region.prod10 (V14_v72 m ρ c) (V14_arg8 m ρ c))

/-! ## The result -/

set_option maxHeartbeats 32000000 in
/-- The result buffer at the last boundary is the reference's last stage of the ten argument arrays. -/
theorem W17_v103 : W17 m ρ c (Proc.devRef .tc main_v103)
    = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  simp (disch := decide) only [W17, W16, W14, W13, W12, W11, W9, W8, W7, W6, W4, W3, W2, W1, after_cons, after_nil, nullary_result', unary_result', binary_result', ternary_result', quaternary_result', reshape_result', nary4_result', nary_result', unaryIndexed_result', binaryIndexed_result', nullary_result_ne', unary_result_ne', binary_result_ne', ternary_result_ne', quaternary_result_ne', reshape_result_ne', nary_result_ne', unaryIndexed_result_ne', binaryIndexed_result_ne', W15_keep, W10_keep, W5_keep, W15_v73, cast_cast, cast_eq]
  rw [slice_prod10]
  rfl

end Cert.KernelIdeal.Stages

end
-- ==== Proof.lean ====
/-
  A three-layer graph convolution network with mean pooling and log-softmax, its three dense transforms done by a
  tiled matrix-unit kernel, against the same network written with plain matrix products.

  Both programs normalise the graph the same way (self-loops added, D^-1/2 (A + I) D^-1/2), and in each of three rounds
  gather the transformed rows along the edges, scale them, scatter-add them into the nodes and add a bias; the first
  two rounds end in a relu; then each graph's nodes are averaged and a log-softmax taken. The only difference is the
  transform h ↦ h · W of each round. The reference forms it as one product. The kernel program pads the 50000 rows to
  50176 = 49 · 1024, runs a kernel over 49 blocks of 1024 rows that rounds both operands to bf16 and multiplies them
  on the matrix unit into a zero accumulator, and keeps the first 50000 rows.

  Over the extended reals the roundings are the identity and both products are the same exact sum
  Σ_k h(r, k) · W(k, c), row by row; a row of the product depends on that row of h only, so the padding never reaches a
  row that is kept. Associativity and commutativity of the sum are all that is used: no distributivity and no
  cancellation, so the finiteness of the inputs plays no part. Everything around the product is the same chain of
  host operations applied to equal values, and is carried along unopened.

  The modules: MatmulBlock (a kernel's stored block, entry by entry), RegionValue (a region's whole output array),
  DotBridge (pad, multiply, slice = the host product), Stages (the kernel program's boundaries against the reference's
  stages), KernelRun (the kernel program's run with its result named).
-/
import proofs.«138514_j7224134992541_1_alg».proof.Defs
import proofs.«138514_j7224134992541_1_alg».proof.Proof.Gen.Kernel
import proofs.«138514_j7224134992541_1_alg».proof.Proof.Gen.Kernel.Skeleton
import proofs.«138514_j7224134992541_1_alg».proof.Proof.Gen.Kernel.Launch
import proofs.«138514_j7224134992541_1_alg».proof.Proof.Gen.Kernel.Points
import proofs.«138514_j7224134992541_1_alg».proof.Proof.Gen.Kernel.Frame
import proofs.«138514_j7224134992541_1_alg».proof.Proof.Gen.KernelIdeal
import proofs.«138514_j7224134992541_1_alg».proof.Proof.Gen.KernelIdeal.Skeleton
import proofs.«138514_j7224134992541_1_alg».proof.Proof.Gen.KernelIdeal.Launch
import proofs.«138514_j7224134992541_1_alg».proof.Proof.Gen.KernelIdeal.Points
import proofs.«138514_j7224134992541_1_alg».proof.Proof.Gen.KernelIdeal.Frame
import proofs.«138514_j7224134992541_1_alg».proof.Proof.Gen.ReferenceIdeal
import proofs.«138514_j7224134992541_1_alg».proof.Proof.Gen.Pre_finite_inputs
import proofs.«138514_j7224134992541_1_alg».proof.Proof.Gen.ReferenceIdeal.Run
import proofs.«138514_j7224134992541_1_alg».proof.Proof.Gen.ReferenceIdeal.Read
import proofs.«138514_j7224134992541_1_alg».proof.Proof.KernelRun
import proofs.«138514_j7224134992541_1_alg».proof.Proof.Stages
import Idealize.ShloMosaic.Adequacy
import Idealize.ShloMosaic.Init

noncomputable section

namespace Cert.Proof

open Idealize.ShloMosaic Idealize.SL.Sem

/-- The kernel program at the word level runs to the end and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Run from memories that agree on the ten arguments, the two idealized programs end with the same 64 × 10 array of
    log-probabilities: the kernel program's result buffer at its last boundary is the reference's last stage as a
    function of the arguments (Stages), and the reference's run ends at that stage of its own arguments. -/
theorem algebraic : Cert.algebraic_KernelIdeal_ReferenceIdeal := by
  intro m ρ m' ρ' _ hagree
  refine ⟨fun c => Cert.KernelIdeal.Gen.W17 m ρ c (Proc.devRef .tc Cert.KernelIdeal.main_v103),
    Cert.KernelIdeal.GenP.run_result (F := Ideal) m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.Value.res_main_v97 m' c
    = Cert.KernelIdeal.Gen.W17 m ρ c (Proc.devRef .tc Cert.KernelIdeal.main_v103)
  rw [Cert.ReferenceIdeal.Read.val_main_v97_eq, Cert.KernelIdeal.Stages.W17_v103 m ρ c,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
